-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4096x2048 .f32) (main_arg1 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4096x2048 : Shape := ⟨2, ![4096, 2048]⟩
abbrev S2048x2048 : Shape := ⟨2, ![2048, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 9
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S4096x1, .f32⟩
  | .hbm, ⟨4, _⟩ => ⟨S1x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | .local _ .vmem, ⟨7, _⟩ => ⟨S4096x2048, .bf16⟩
  | .local _ .vmem, ⟨8, _⟩ => ⟨S4096x1, .f32⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | .local _ .vmem, ⟨12, _⟩ => ⟨S256x1, .f32⟩
  | .local _ .vmem, ⟨13, _⟩ => ⟨S256x1, .f32⟩
  | .local _ .vmem, ⟨14, _⟩ => ⟨S256x4096, .f32⟩
  | .local _ .vmem, ⟨15, _⟩ => ⟨S256x4096, .f32⟩
  | .local _ .vmem, ⟨16, _⟩ => ⟨S256x1, .f32⟩
  | .local _ .vmem, ⟨17, _⟩ => ⟨S256x1, .f32⟩
  | .local _ .vmem, ⟨18, _⟩ => ⟨S1x4096, .f32⟩
  | .local _ .vmem, ⟨19, _⟩ => ⟨S256x4096, .f32⟩
  | .local _ .vmem, ⟨20, _⟩ => ⟨S256x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def k1_mult1 (i : grid1.Coords) : BitVec 32 :=
  let arg0 : BitVec 32 := BitVec.ofNat 32 (i 0).val
  let c256_i32 : BitVec 32 := 256#32
  let v0 : BitVec 32 := Scalar.muli arg0 c256_i32
  v0
def k1_off1 (i : grid1.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def k1_off2 (i : grid1.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v7 : Index := Scalar.indexCast v1
  let c0_2 : Index := 0#32
  ![v7.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  packedbf16_S256x2048_S256x2048_0_0 : (Rect.unit (s := S256x2048) ![0, 0] S256x2048.size inb_S256x2048_S256x2048_0_0).PackedRows (EltTy.packing .bf16)
  reduces_S256x2048_S256 : S256x2048.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S4096x1_S1x4096 : S4096x1.ShapeCasts S1x4096
  shapeCasts_S256x2048_S256x2048 : S256x2048.ShapeCasts S256x2048
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  iota_S256x4096_d0_w32 : S256x4096.Iotas .tc 32 [0]
  iota_S256x4096_d1_w32 : S256x4096.Iotas .tc 32 [1]
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256x4096_S256x4096 : S256x4096.ShapeCasts S256x4096
  dot_S256x2048_S2048x2048_S256x2048_1_0_0_1_n_n_wf : DotDims.WF S256x2048 S2048x2048 S256x2048 [1] [0] [0] [1] [] []
  dot_S256x2048_S4096x2048_S256x4096_1_1_0_0_n_n_wf : DotDims.WF S256x2048 S4096x2048 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .bf16 = 32 ∨ (Rect.block (s := S4096x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x2048.size a ≤ S4096x2048.size a
  k1_off2_inb : ∀ i : grid1.Coords, ∀ a, (k1_off2 i) a + S256x1.size a ≤ S4096x1.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x2048.size a ≤ S4096x2048.size a
  hwx1_0 : ∀ i : grid1.Coords, EltTy.bits .bf16 = 32 ∨ (Rect.block (s := S4096x2048) S4096x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S4096x1.size a
  hwx1_1 : ∀ i : grid1.Coords, EltTy.bits .f32 = 32 ∨ (Rect.block (s := S4096x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .f32 = 32 ∨ (Rect.block (s := S4096x4096) S256x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S4096x1.size a
  hwx1_4 : ∀ i : grid1.Coords, EltTy.bits .f32 = 32 ∨ (Rect.block (s := S4096x1) S256x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S4096x1.size a
  hwx2_1 : ∀ i : grid2.Coords, EltTy.bits .f32 = 32 ∨ (Rect.block (s := S4096x1) S256x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S4096x4096.size a
  hwx2_3 : ∀ i : grid2.Coords, EltTy.bits .f32 = 32 ∨ (Rect.block (s := S4096x4096) S256x4096.size (cc2_transform_3 i) (hinb2_3 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S4096x2048_S256x4096_1_1_0_0_n_n : DotDims S256x2048 S4096x2048 S256x4096 where
  lhsContracting := [1]
  rhsContracting := [1]
  lhsNonContracting := [0]
  rhsNonContracting := [0]
  lhsBatch := []
  rhsBatch := []
  wf := dot_S256x2048_S4096x2048_S256x4096_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S4096x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S256x4096.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S256x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v2_0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_1) S256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S256x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S2048x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096x4096, .f32⟩
  | .hbm, ⟨44, _⟩ => ⟨S4096x4096, .f32⟩
  | .hbm, ⟨45, _⟩ => ⟨S1x4096, .f32⟩
  | .hbm, ⟨46, _⟩ => ⟨S4096x4096, .f32⟩
  | .hbm, ⟨47, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  dot_S4096x2048_S2048x2048_S4096x2048_1_0_0_1_n_n_wf : DotDims.WF S4096x2048 S2048x2048 S4096x2048 [1] [0] [0] [1] [] []
  dot_S4096x2048_S2048x4096_S4096x4096_1_0_0_1_n_n_wf : DotDims.WF S4096x2048 S2048x4096 S4096x4096 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.Spec.lean ====
/-
  The mathematics both programs compute, stated once, index by index, over the extended reals.

  From features `f` (4096 × 2048) and a projection `p` (2048 × 2048):
    z        = f · p                                   (the projected features, 4096 × 2048)
    n r      = Σₖ z(r,k)²                              (each row's squared norm)
    d² r c   = max ((n r + n c) − 2 · Σₖ z(r,k) z(c,k), 0)   (squared pairwise distance, clamped at zero)
    a r c    = exp (−1 · dist r c),  dist r c = 0 on the diagonal and √(d² r c) off it
               (on the diagonal the square root is taken of 1, so that it is never taken of a rounding-negative number)
    g r      = (Σ_c a r c)^(−1/2)                      (inverse square root of the row degree)
    out r c  = (g r · a r c) · g c                     (the symmetrically normalised adjacency)
  The results are `out` and `a`.

  Every sum is a plain finite sum over `Fin`, every product and sum is grouped exactly as written above, and the four
  constants 2, 0, 1, −1 are kept as the float words both programs spell, so that neither side ever evaluates one.
  The column vectors (4096 × 1) and row vectors (1 × 4096) that carry `n` and `g` between the stages are kept as
  arrays of those shapes: a stage reads a column at (r, 0) and a row at (0, c).
-/
import Idealize.ShloMosaic.PureOps.Ideal
import Idealize.ShloMosaic.PureOps.Ideal.Laws
import Idealize.ShloMosaic.Lib.ValueIdx

noncomputable section

namespace Cert.Maha

open Idealize.ShloMosaic Idealize.ShloMosaic.ValueIdx

/-- 4096 × 2048: the features and their projection. -/
abbrev SF : Shape := ⟨2, ![4096, 2048]⟩
/-- 2048 × 2048: the projection matrix. -/
abbrev SP : Shape := ⟨2, ![2048, 2048]⟩
/-- 4096 × 1: a column vector. -/
abbrev SC : Shape := ⟨2, ![4096, 1]⟩
/-- 1 × 4096: a row vector. -/
abbrev SR : Shape := ⟨2, ![1, 4096]⟩
/-- 4096 × 4096: the adjacency. -/
abbrev SA : Shape := ⟨2, ![4096, 4096]⟩

/-- The float words of 0, 1, 2 and −1, read as extended reals. -/
abbrev c0 : EReal := Ideal.ofBits .f32 0x00000000#32
abbrev c1 : EReal := Ideal.ofBits .f32 0x3F800000#32
abbrev c2 : EReal := Ideal.ofBits .f32 0x40000000#32
abbrev cm1 : EReal := Ideal.ofBits .f32 0xBF800000#32

/-- Entry (r, c) of the matrix product f · p. -/
def projAt (f : SF.Idx → EReal) (p : SP.Idx → EReal) (r : Fin 4096) (c : Fin 2048) : EReal :=
  ∑ k : Fin 2048, f (ix2 r k) * p (ix2 k c)

/-- The projected features f · p. -/
def proj (f : SF.Idx → EReal) (p : SP.Idx → EReal) : SF.Idx → EReal := fun i => projAt f p (i 0) (i 1)

/-- Row r's squared norm. -/
def sqnAt (z : SF.Idx → EReal) (r : Fin 4096) : EReal := ∑ k : Fin 2048, z (ix2 r k) * z (ix2 r k)

/-- The squared norms as a column. -/
def sqnCol (z : SF.Idx → EReal) : SC.Idx → EReal := fun i => sqnAt z (i 0)

/-- A column laid out as a row: entry (0, c) is the column's entry (c, 0). -/
def rowOf (v : SC.Idx → EReal) : SR.Idx → EReal := fun i => v (ix2 (i 1) 0)

/-- The inner product of rows r and c. -/
def gramAt (z : SF.Idx → EReal) (r c : Fin 4096) : EReal := ∑ k : Fin 2048, z (ix2 r k) * z (ix2 c k)

/-- The diagonal test as both programs take it: row number plus zero against column number, as 32-bit words. -/
def onDiag (r c : Fin 4096) : BitVec 1 := IntOp.cmpi .eq (BitVec.ofNat 32 r.val + 0#32) (BitVec.ofNat 32 c.val)

/-- Entry (r, c) of the adjacency, from the projected features, their squared norms as a column and as a row. -/
def adjAt (z : SF.Idx → EReal) (col : SC.Idx → EReal) (row : SR.Idx → EReal) (r c : Fin 4096) : EReal :=
  Ideal.exp (cm1 * Scalar.select (onDiag r c) c0
    (Ideal.sqrt (Scalar.select (onDiag r c) c1
      (max ((col (ix2 r 0) + row (ix2 0 c)) - c2 * gramAt z r c) c0))))

/-- The adjacency. -/
def adj (z : SF.Idx → EReal) (col : SC.Idx → EReal) (row : SR.Idx → EReal) : SA.Idx → EReal :=
  fun i => adjAt z col row (i 0) (i 1)

/-- Row r's degree to the power −1/2. -/
def degAt (a : SA.Idx → EReal) (r : Fin 4096) : EReal := Ideal.rsqrt (∑ j : Fin 4096, a (ix2 r j))

/-- The inverse square roots of the degrees as a column. -/
def degCol (a : SA.Idx → EReal) : SC.Idx → EReal := fun i => degAt a (i 0)

/-- Entry (r, c) of the normalised adjacency. -/
def normAt (a : SA.Idx → EReal) (col : SC.Idx → EReal) (row : SR.Idx → EReal) (r c : Fin 4096) : EReal :=
  (col (ix2 r 0) * a (ix2 r c)) * row (ix2 0 c)

/-- The normalised adjacency. -/
def norm (a : SA.Idx → EReal) (col : SC.Idx → EReal) (row : SR.Idx → EReal) : SA.Idx → EReal :=
  fun i => normAt a col row (i 0) (i 1)

/-- The whole computation's second result: the adjacency of the features projected by p. -/
def adjOf (f : SF.Idx → EReal) (p : SP.Idx → EReal) : SA.Idx → EReal :=
  adj (proj f p) (sqnCol (proj f p)) (rowOf (sqnCol (proj f p)))

/-- The whole computation's first result: that adjacency normalised by its degrees. -/
def normOf (f : SF.Idx → EReal) (p : SP.Idx → EReal) : SA.Idx → EReal :=
  norm (adjOf f p) (degCol (adjOf f p)) (rowOf (degCol (adjOf f p)))

end Cert.Maha

end
-- ==== Proof.RefSpec.lean ====
/-
  The reference program, stage by stage, is the specification: its projected features, squared norms, adjacency,
  inverse-square-root degrees and normalised adjacency are the functions of the specification, at every index.
-/
import proofs.«131588_j5334349382038_2_alg».proof.Proof.Spec
import proofs.«131588_j5334349382038_2_alg».proof.Proof.Gen.ReferenceIdeal.Read

noncomputable section

namespace Cert.Maha.Ref

open Idealize.ShloMosaic Idealize.ShloMosaic.ValueIdx Cert.ReferenceIdeal Cert.ReferenceIdeal.Read

variable (x0 : (⟨S4096x2048, .f32⟩ : BufTy).Contents (Elt Ideal)) (x1 : (⟨S2048x2048, .f32⟩ : BufTy).Contents (Elt Ideal))

/-- Entry (r, c) of the first stage is the matrix product's entry. -/
theorem v0_at (r : Fin 4096) (c : Fin 2048) :
    val_main_v0 (F := Ideal) x0 x1 (ix2 r c) = Cert.Maha.projAt x0 x1 r c := by
  rw [val_main_v0_apply]
  unfold Cert.Maha.projAt
  refine Finset.sum_congr rfl fun k _ => ?_
  have hl : lidx_main_v0 (ix2 r c) k = ix2 r k :=
    funext fun a => Fin.ext (by match a with | ⟨0, _⟩ => rfl | ⟨1, _⟩ => rfl)
  have hr : ridx_main_v0 (ix2 r c) k = ix2 k c :=
    funext fun a => Fin.ext (by match a with | ⟨0, _⟩ => rfl | ⟨1, _⟩ => rfl)
  rw [hl, hr]

/-- The first stage is the projected features f · p. -/
theorem v0_eq : val_main_v0 (F := Ideal) x0 x1 = Cert.Maha.proj x0 x1 := by
  funext i
  obtain ⟨r, c, rfl⟩ : ∃ (r : Fin 4096) (c : Fin 2048), i = ix2 r c := ⟨i 0, i 1, eq_ix2 i⟩
  exact v0_at x0 x1 r c

/-- Entry (r, 0) of the column of squared norms is the sum over k of the squares of row r of the projected features:
    the sum's initial term is the float word of zero. -/
theorem v3_at (r : Fin 4096) (z : Fin 1) :
    val_main_v3 (F := Ideal) x0 x1 (ix2 r z) = Cert.Maha.sqnAt (val_main_v0 (F := Ideal) x0 x1) r := by
  rw [val_main_v3_apply, val_main_v2_apply, val_main_cst_apply, Ideal.ofBits_def, Ideal.ofBits_zero_f32, zero_add]
  unfold Cert.Maha.sqnAt
  refine Finset.sum_congr rfl fun k _ => ?_
  rw [val_main_v1_apply, Ideal.mulf_def]
  have h : idx_main_v2 (idx_main_v3 (ix2 r z)) k = ix2 r k :=
    funext fun a => Fin.ext (by match a with | ⟨0, _⟩ => rfl | ⟨1, _⟩ => rfl)
  rw [h]

/-- The squared norms of the projected features' rows, as a column. -/
theorem v3_eq : val_main_v3 (F := Ideal) x0 x1 = Cert.Maha.sqnCol (val_main_v0 (F := Ideal) x0 x1) := by
  funext i
  obtain ⟨r, z, rfl⟩ : ∃ (r : Fin 4096) (z : Fin 1), i = ix2 r z := ⟨i 0, i 1, eq_ix2 i⟩
  exact v3_at x0 x1 r z

/-- Entry (0, c) of the row of squared norms is entry (c, 0) of the column. -/
theorem v4_at (z : Fin 1) (c : Fin 4096) :
    val_main_v4 (F := Ideal) x0 x1 (ix2 z c) = val_main_v3 (F := Ideal) x0 x1 (ix2 c 0) := by
  rw [val_main_v4_apply, val_main_v3_apply]

/-- The squared norms as a row: the column laid out along the second axis. -/
theorem v4_eq : val_main_v4 (F := Ideal) x0 x1 = Cert.Maha.rowOf (val_main_v3 (F := Ideal) x0 x1) := by
  funext i
  obtain ⟨z, c, rfl⟩ : ∃ (z : Fin 1) (c : Fin 4096), i = ix2 z c := ⟨i 0, i 1, eq_ix2 i⟩
  exact v4_at x0 x1 z c

/-- The diagonal test at (r, c): row number plus zero against column number, as 32-bit words. -/
theorem diag_at (r c : Fin 4096) : val_main_v19 (F := Ideal) (ix2 r c) = Cert.Maha.onDiag r c := by
  rw [val_main_v19_apply, val_main_v18_apply, val_main_v15_apply, val_main_v17_apply, val_main_c_apply,
    val_main_v16_apply]
  rfl

/-- Entry (r, c) of the product of the projected features with their transpose is the inner product of rows r and c. -/
theorem gram_at (r c : Fin 4096) :
    val_main_v9 (F := Ideal) x0 x1 (ix2 r c) = Cert.Maha.gramAt (val_main_v0 (F := Ideal) x0 x1) r c := by
  rw [val_main_v9_apply]
  unfold Cert.Maha.gramAt
  refine Finset.sum_congr rfl fun k _ => ?_
  rw [val_main_v8_apply]
  have hl : lidx_main_v9 (ix2 r c) k = ix2 r k :=
    funext fun a => Fin.ext (by match a with | ⟨0, _⟩ => rfl | ⟨1, _⟩ => rfl)
  have hr : idx_main_v8 (ridx_main_v9 (ix2 r c) k) = ix2 c k :=
    funext fun a => Fin.ext (by match a with | ⟨0, _⟩ => rfl | ⟨1, _⟩ => rfl)
  rw [hl, hr]

/-- Entry (r, c) of the clamped squared distance: (n r + n c) − 2 · ⟨z r, z c⟩, clamped below at zero. -/
theorem dist2_at (r c : Fin 4096) :
    val_main_v14 (F := Ideal) x0 x1 (ix2 r c)
      = max ((val_main_v3 (F := Ideal) x0 x1 (ix2 r 0) + val_main_v4 (F := Ideal) x0 x1 (ix2 0 c))
          - Cert.Maha.c2 * Cert.Maha.gramAt (val_main_v0 (F := Ideal) x0 x1) r c) Cert.Maha.c0 := by
  rw [val_main_v14_apply, val_main_v12_apply, val_main_v7_apply, val_main_v11_apply, val_main_v5_apply,
    val_main_v6_apply, val_main_v10_apply, val_main_cst_0_apply, val_main_v13_apply, val_main_cst_1_apply,
    gram_at, Ideal.maximumf_def, Ideal.subf_def, Ideal.addf_def, Ideal.mulf_def, Ideal.ofBits_def, Ideal.ofBits_def]
  have h5 : idx_main_v5 (ix2 r c) = ix2 r 0 :=
    funext fun a => Fin.ext (by match a with | ⟨0, _⟩ => rfl | ⟨1, _⟩ => rfl)
  have h6 : idx_main_v6 (ix2 r c) = ix2 0 c :=
    funext fun a => Fin.ext (by match a with | ⟨0, _⟩ => rfl | ⟨1, _⟩ => rfl)
  rw [h5, h6]

/-- Entry (r, c) of the adjacency: exp of −1 times the distance, the distance being 0 on the diagonal and the square
    root of the clamped squared distance off it (on the diagonal the root is taken of 1). -/
theorem v25_at (r c : Fin 4096) :
    val_main_v25 (F := Ideal) x0 x1 (ix2 r c)
      = Cert.Maha.adjAt (val_main_v0 (F := Ideal) x0 x1) (val_main_v3 (F := Ideal) x0 x1)
          (val_main_v4 (F := Ideal) x0 x1) r c := by
  rw [val_main_v25_apply, val_main_v24_apply, val_main_v23_apply, val_main_cst_4_apply, val_main_v22_apply,
    val_main_call1_v1_apply, val_main_call1_v0_apply, val_main_cst_3_apply, val_main_v21_apply, val_main_v20_apply,
    val_main_call0_v1_apply, val_main_call0_v0_apply, val_main_cst_2_apply, diag_at, dist2_at,
    Ideal.hostUnary_exp_def, Ideal.hostUnary_sqrt_def, Ideal.mulf_def, Ideal.ofBits_def, Ideal.ofBits_def,
    Ideal.ofBits_def]
  rfl

/-- The adjacency of the projected features. -/
theorem v25_eq : val_main_v25 (F := Ideal) x0 x1
    = Cert.Maha.adj (val_main_v0 (F := Ideal) x0 x1) (val_main_v3 (F := Ideal) x0 x1) (val_main_v4 (F := Ideal) x0 x1) := by
  funext i
  obtain ⟨r, c, rfl⟩ : ∃ (r : Fin 4096) (c : Fin 4096), i = ix2 r c := ⟨i 0, i 1, eq_ix2 i⟩
  exact v25_at x0 x1 r c

/-- Entry (r, 0) of the degree column: the inverse square root of the sum of row r of the adjacency (the sum's initial
    term is the float word of zero). -/
theorem v28_at (r : Fin 4096) (z : Fin 1) :
    val_main_v28 (F := Ideal) x0 x1 (ix2 r z) = Cert.Maha.degAt (val_main_v25 (F := Ideal) x0 x1) r := by
  rw [val_main_v28_apply, val_main_v27_apply, val_main_v26_apply, val_main_cst_5_apply, Ideal.hostUnary_rsqrt_def,
    Ideal.ofBits_def, Ideal.ofBits_zero_f32, zero_add]
  unfold Cert.Maha.degAt
  refine congrArg Ideal.rsqrt (Finset.sum_congr rfl fun k _ => ?_)
  have h : idx_main_v26 (idx_main_v28 (ix2 r z)) k = ix2 r k :=
    funext fun a => Fin.ext (by match a with | ⟨0, _⟩ => rfl | ⟨1, _⟩ => rfl)
  rw [h]

/-- The inverse square roots of the adjacency's row degrees, as a column. -/
theorem v28_eq : val_main_v28 (F := Ideal) x0 x1 = Cert.Maha.degCol (val_main_v25 (F := Ideal) x0 x1) := by
  funext i
  obtain ⟨r, z, rfl⟩ : ∃ (r : Fin 4096) (z : Fin 1), i = ix2 r z := ⟨i 0, i 1, eq_ix2 i⟩
  exact v28_at x0 x1 r z

/-- Entry (0, c) of the degree row is entry (c, 0) of the degree column. -/
theorem v31_at (z : Fin 1) (c : Fin 4096) :
    val_main_v31 (F := Ideal) x0 x1 (ix2 z c) = val_main_v28 (F := Ideal) x0 x1 (ix2 c 0) := by
  rw [val_main_v31_apply, val_main_v28_apply]

/-- The inverse square roots of the degrees as a row: the column laid out along the second axis. -/
theorem v31_eq : val_main_v31 (F := Ideal) x0 x1 = Cert.Maha.rowOf (val_main_v28 (F := Ideal) x0 x1) := by
  funext i
  obtain ⟨z, c, rfl⟩ : ∃ (z : Fin 1) (c : Fin 4096), i = ix2 z c := ⟨i 0, i 1, eq_ix2 i⟩
  exact v31_at x0 x1 z c

/-- Entry (r, c) of the result: (g r · a r c) · g c. -/
theorem v33_at (r c : Fin 4096) :
    val_main_v33 (F := Ideal) x0 x1 (ix2 r c)
      = Cert.Maha.normAt (val_main_v25 (F := Ideal) x0 x1) (val_main_v28 (F := Ideal) x0 x1)
          (val_main_v31 (F := Ideal) x0 x1) r c := by
  rw [val_main_v33_apply, val_main_v30_apply, val_main_v29_apply, val_main_v32_apply, Ideal.mulf_def, Ideal.mulf_def]
  have h29 : idx_main_v29 (ix2 r c) = ix2 r 0 :=
    funext fun a => Fin.ext (by match a with | ⟨0, _⟩ => rfl | ⟨1, _⟩ => rfl)
  have h32 : idx_main_v32 (ix2 r c) = ix2 0 c :=
    funext fun a => Fin.ext (by match a with | ⟨0, _⟩ => rfl | ⟨1, _⟩ => rfl)
  rw [h29, h32]
  rfl

/-- The adjacency normalised on both sides by the inverse square roots of its degrees. -/
theorem v33_eq : val_main_v33 (F := Ideal) x0 x1
    = Cert.Maha.norm (val_main_v25 (F := Ideal) x0 x1) (val_main_v28 (F := Ideal) x0 x1) (val_main_v31 (F := Ideal) x0 x1) := by
  funext i
  obtain ⟨r, c, rfl⟩ : ∃ (r : Fin 4096) (c : Fin 4096), i = ix2 r c := ⟨i 0, i 1, eq_ix2 i⟩
  exact v33_at x0 x1 r c

/-- The reference's adjacency stage is the specification's adjacency of the inputs. -/
theorem ref_adj : val_main_v25 (F := Ideal) x0 x1 = Cert.Maha.adjOf x0 x1 := by
  rw [v25_eq, v4_eq, v3_eq, v0_eq]
  rfl

/-- The reference's last stage is the specification's normalised adjacency of the inputs. -/
theorem ref_norm : val_main_v33 (F := Ideal) x0 x1 = Cert.Maha.normOf x0 x1 := by
  rw [v33_eq, v31_eq, v28_eq, ref_adj]
  rfl

end Cert.Maha.Ref

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.WholeRun.lean ====
/-
  The idealized kernel's run with EVERY unscoped buffer named.

  @main is three grid regions with one reshape between each pair. The generated frame module folds the buffer
  contents through @main boundary by boundary (`Gen.W0` the launch memory, `Gen.W1` after the first region, …,
  `Gen.W5` after the last) and runs the five segments; its own conclusion keeps only the two argument arrays.
  Here the same segments are run to the conclusion that every unscoped buffer ends at `Gen.W5`, and the two results
  are then traced back through the fold:
    the normalised adjacency is the third region's output array after its last write-back;
    the adjacency is the second region's first output array after ITS last write-back — the third region only reads
    it, and the reshape between them writes another buffer.
-/
import proofs.«131588_j5334349382038_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The adjacency's buffer is not written after the second region: the last boundary's contents of it are that
    region's first output array after its last write-back. -/
theorem W5_adj (c : Dev nD) : W5 m ρ c (Proc.devRef .tc main_v2_0) = (dat1 (V2 m ρ) c).arrAt 3 cfg1.N :=
  calc W5 m ρ c (Proc.devRef .tc main_v2_0)
    _ = W4 m ρ c (Proc.devRef .tc main_v2_0) :=
          (W5_arr m ρ c 0).trans (((dat2 (V4 m ρ) c).arrAt_in 0 rfl _).trans (A_eq2 (V4 m ρ) c 0))
    _ = W3 m ρ c (Proc.devRef .tc main_v2_0) := StableHlo.after_of_forall_not_mem (b := Proc.devRef .tc main_v2_0) _ _ (List.forall_iff_forall_mem.mp (by
          simp only [hostOps2, List.Forall, StableHlo.reshape_writes, Finset.mem_singleton]
          exact StableHlo.devRef_ne_of_ne (by decide)))
    _ = (dat1 (V2 m ρ) c).arrAt 3 cfg1.N := W3_arr m ρ c 3

/-- The run, with the two results and the two arguments read: the normalised adjacency is the third region's output
    array after its last write-back, the adjacency the second region's, and the arguments end as launched. -/
theorem run : θ_run defs (onTc (τ := τ) (main (F := F))) ⟨m, fun _ => 0, ρ⟩ (fun r => ∀ c : Dev nD,
      r.2.mem ((c.tc : Thread nD τ).loc main_v4) = (dat2 (V4 m ρ) c).arrAt 3 cfg2.N
      ∧ r.2.mem ((c.tc : Thread nD τ).loc main_v2_0) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v4 (by decide))).trans (W5_arr m ρ c 3),
     (h c _ (mem_uc main_v2_0 (by decide))).trans (W5_adj m ρ c),
     (h c _ (mem_uc main_arg0 (by decide))).trans (W5_main_arg0 m ρ c),
     (h c _ (mem_uc main_arg1 (by decide))).trans (W5_main_arg1 m ρ c)⟩)
    (run_all m ρ)

end Cert.KernelIdeal.Whole

end
-- ==== Proof.ProjValue.lean ====
/-
  The first region: the projection z = f · p and the rows' squared norms, block by block.

  The region walks 16 row blocks of 256 rows of the features; the projection matrix is resident whole. At block `t`
  the body multiplies the block by the matrix into a zero accumulator — entry (p, q) is Σₖ f(256·t + p, k) · p(k, q),
  the narrowing of both operands to sixteen bits being the identity on the extended reals — and stores that product
  (narrowed again: the identity again) and, as a 256 × 1 column, each row's sum of squares of the UN-narrowed
  product. Every row of z and of the column lies in exactly the block of its number divided by 256, so after the last
  write-back the first output array is f · p and the second is the column of its rows' squared norms, for whatever
  arrays the region found.
-/
import proofs.«131588_j5334349382038_2_alg».proof.Proof.Spec
import proofs.«131588_j5334349382038_2_alg».proof.Proof.LibColumns
import proofs.«131588_j5334349382038_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.ProjValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers: the left operand's columns against the right operand's rows. -/
abbrev D0 : DotDims S256x2048 S2048x2048 S256x2048 := dot_S256x2048_S2048x2048_S256x2048_1_0_0_1_n_n

/-- The left operand is read at the output's row … -/
theorem lhs0 (i : S256x2048.Idx) (q : D0.contr.Idx) : (D0.lhsIdx i q 0).val = (i 0).val := by
  unfold DotDims.lhsIdx
  rw [dif_neg (show ¬(0 : Fin S256x2048.rank) ∈ D0.lhsBatch by decide), dif_pos (show (0 : Fin S256x2048.rank) ∈ D0.lhsNonContracting by decide)]
  rfl
/-- … and the contraction position, -/
theorem lhs1 (i : S256x2048.Idx) (q : D0.contr.Idx) : (D0.lhsIdx i q 1).val = (q ⟨0, by decide⟩).val :=
  D0.lhsIdx_val_of_single rfl i q
/-- the right operand at the contraction position … -/
theorem rhs0 (i : S256x2048.Idx) (q : D0.contr.Idx) : (D0.rhsIdx i q 0).val = (q ⟨0, by decide⟩).val :=
  D0.rhsIdx_val_of_single rfl i q
/-- … and the output's column. -/
theorem rhs1 (i : S256x2048.Idx) (q : D0.contr.Idx) : (D0.rhsIdx i q 1).val = (i 1).val := by
  unfold DotDims.rhsIdx
  rw [dif_neg (show ¬(1 : Fin S2048x2048.rank) ∈ D0.rhsBatch by decide), dif_pos (show (1 : Fin S2048x2048.rank) ∈ D0.rhsNonContracting by decide)]
  rfl

/-- The block product at entry (p, q): the sum over k of the features block's (p, k) times the matrix's (k, q). -/
theorem pay1_apply (x0 : FVec Ideal S256x2048 .f32) (x1 : FVec Ideal S2048x2048 .f32) (p : Fin 256) (q : Fin 2048) :
    k0_pay1 (F := Ideal) x0 x1 (ix2 p q) = ∑ k : Fin 2048, x0 (ix2 p k) * x1 (ix2 k q) := by
  unfold k0_pay1
  refine (Ideal.matmul_constant_zero_apply D0 none _ _ (ix2 p q)).trans ?_
  rw [← Equiv.sum_comp (contrEquiv1 D0 2048 rfl rfl).symm]
  refine Finset.sum_congr rfl fun k _ => ?_
  have hk := contrEquiv1_symm_val D0 2048 rfl rfl k
  have el : D0.lhsIdx (ix2 p q) ((contrEquiv1 D0 2048 rfl rfl).symm k) = ix2 p k := funext fun a => Fin.ext (by
    match a with
    | ⟨0, _⟩ => exact lhs0 _ _
    | ⟨1, _⟩ => exact (lhs1 _ _).trans hk)
  have er : D0.rhsIdx (ix2 p q) ((contrEquiv1 D0 2048 rfl rfl).symm k) = ix2 k q := funext fun a => Fin.ext (by
    match a with
    | ⟨0, _⟩ => exact (rhs0 _ _).trans hk
    | ⟨1, _⟩ => exact rhs1 _ _)
  rw [el, er]
  rfl

/-- The stored product is the block product: narrowing to sixteen bits is the identity on the extended reals. -/
theorem pay2_apply (x0 : FVec Ideal S256x2048 .f32) (x1 : FVec Ideal S2048x2048 .f32) (p : Fin 256) (q : Fin 2048) :
    k0_pay2 (F := Ideal) x0 x1 (ix2 p q) = ∑ k : Fin 2048, x0 (ix2 p k) * x1 (ix2 k q) :=
  pay1_apply x0 x1 p q

/-- The stored column at row p: the sum over the 2048 columns of the block product's squared entries. -/
theorem pay3_apply (x0 : FVec Ideal S256x2048 .f32) (x1 : FVec Ideal S2048x2048 .f32) (p : Fin 256) (u : Fin 1) :
    k0_pay3 (F := Ideal) x0 x1 (ix2 p u)
      = ∑ k : Fin 2048, k0_pay1 (F := Ideal) x0 x1 (ix2 p k) * k0_pay1 (F := Ideal) x0 x1 (ix2 p k) := by
  unfold k0_pay3
  refine (Cert.Columns.shapeCast_a_a1_apply _ _ p u).trans ?_
  refine (Ideal.multiReduction_add_single _ 0x00000000#32 reduces_S256x2048_S256 (.inl rfl) rfl (ix1 p)).trans ?_
  show ∑ k : Fin 2048, _ = _
  refine Finset.sum_congr rfl fun k _ => ?_
  have e : reduces_S256x2048_S256.lift (ix1 p) k = ix2 p k :=
    funext fun a => Fin.ext (by match a with | ⟨0, _⟩ => rfl | ⟨1, _⟩ => rfl)
  rw [e]
  rfl

/-- The stored product against the specification: if the features block's row p is the features' row of index `i`,
    and the matrix block's column q is the matrix's column of index `i`, the stored entry is (f · p) at `i`. -/
theorem pay_proj (f : Cert.Maha.SF.Idx → EReal) (P : Cert.Maha.SP.Idx → EReal)
    (x0 : FVec Ideal S256x2048 .f32) (x1 : FVec Ideal S2048x2048 .f32) (p : Fin 256) (q : Fin 2048) (i : Cert.Maha.SF.Idx)
    (h0 : ∀ k : Fin 2048, x0 (ix2 p k) = f (ix2 (i 0) k)) (h1 : ∀ k : Fin 2048, x1 (ix2 k q) = P (ix2 k (i 1))) :
    k0_pay2 (F := Ideal) x0 x1 (ix2 p q) = Cert.Maha.proj f P i := by
  rw [pay2_apply]
  show _ = ∑ k : Fin 2048, f (ix2 (i 0) k) * P (ix2 k (i 1))
  exact Finset.sum_congr rfl fun k _ => by rw [h0 k, h1 k]

/-- The stored column against the specification: under the same reading of the blocks (the matrix whole), the
    stored entry of row p is the squared norm of the row of f · p that index `i` names. -/
theorem pay_sqn (f : Cert.Maha.SF.Idx → EReal) (P : Cert.Maha.SP.Idx → EReal)
    (x0 : FVec Ideal S256x2048 .f32) (x1 : FVec Ideal S2048x2048 .f32) (p : Fin 256) (u : Fin 1) (i : Cert.Maha.SC.Idx)
    (h0 : ∀ k : Fin 2048, x0 (ix2 p k) = f (ix2 (i 0) k)) (h1 : ∀ d k : Fin 2048, x1 (ix2 d k) = P (ix2 d k)) :
    k0_pay3 (F := Ideal) x0 x1 (ix2 p u) = Cert.Maha.sqnCol (Cert.Maha.proj f P) i := by
  rw [pay3_apply]
  show _ = ∑ k : Fin 2048, Cert.Maha.proj f P (ix2 (i 0) k) * Cert.Maha.proj f P (ix2 (i 0) k)
  refine Finset.sum_congr rfl fun k _ => ?_
  have e : k0_pay1 (F := Ideal) x0 x1 (ix2 p k) = Cert.Maha.proj f P (ix2 (i 0) k) := by
    rw [pay1_apply]
    show _ = ∑ d : Fin 2048, f (ix2 (i 0) d) * P (ix2 d k)
    exact Finset.sum_congr rfl fun d _ => by rw [h0 d, h1 d k]
  rw [e]

/-- Where each window's block sits at point `t`: the features', the product's and the column's at row block `t`, the
    matrix's always at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The projected features the region leaves, as a function of the arrays it found. -/
abbrev zres (c : Dev nD) : Buf (Elt Ideal) ((c : Thread nD τ).loc main_v0_0) :=
  Cert.Maha.proj (V c main_arg0) (V c main_arg1)

/-- The column of squared norms the region leaves. -/
abbrev nres (c : Dev nD) : Buf (Elt Ideal) ((c : Thread nD τ).loc main_v0_1) :=
  Cert.Maha.sqnCol (Cert.Maha.proj (V c main_arg0) (V c main_arg1))

/-- What point `t` writes back of the product is block `t` of f · p. -/
theorem flushed_z (c : Dev nD) (t : Fin cfg0.N) :
    (dat0 V c).flushed 2 t = ((cfg0.win 2).blk t).view.read (Elt Ideal) (zres V c) := by
  show (cfg0.win 2).cut (grid0.coords t) ((dat0 V c).after 2 t) = _
  rw [after0_2]
  unfold out0_2
  rw [View.canon_unit_zero hz]
  simp only [View.ld_unit_zero (S := S256x2048) hz, View.ld_unit_zero (S := S2048x2048) hz]
  obtain ⟨e0, e1, e2, e3, e4, e5, e6, e7⟩ := idx_facts t
  funext j
  have hj0 : (j 0).val < 256 := (j 0).isLt
  have hj1 : (j 1).val < 2048 := (j 1).isLt
  have hjj : j = ix2 (⟨(j 0).val, hj0⟩ : Fin 256) (⟨(j 1).val, hj1⟩ : Fin 2048) :=
    funext fun a => by match a with | ⟨0, _⟩ => rfl | ⟨1, _⟩ => rfl
  have h0 : ∀ k : Fin 2048, ((cfg0.win 0).blk t).view.emb (ix2 (⟨(j 0).val, hj0⟩ : Fin 256) k)
      = ix2 ((((cfg0.win 2).blk t).view.emb j) 0) k := fun k => by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 2048 + 1 * k.val = k.val; omega
  have h1 : ∀ k : Fin 2048, ((cfg0.win 1).blk t).view.emb (ix2 k (⟨(j 1).val, hj1⟩ : Fin 2048))
      = ix2 k ((((cfg0.win 2).blk t).view.emb j) 1) := fun k => by
    funext a; apply Fin.ext
    match a with
    | ⟨0, _⟩ => show win0_1.index t (0 : Fin 2) * 2048 + 1 * k.val = k.val; omega
    | ⟨1, _⟩ => show win0_1.index t (1 : Fin 2) * 2048 + 1 * (j 1).val = win0_2.index t (1 : Fin 2) * 2048 + 1 * (j 1).val; omega
  refine (congrArg (k0_pay2 (F := Ideal) (iblk0 V c 0 t) (iblk0 V c 1 t)) hjj).trans ?_
  exact pay_proj (V c main_arg0) (V c main_arg1) (iblk0 V c 0 t) (iblk0 V c 1 t) _ _ (((cfg0.win 2).blk t).view.emb j)
    (fun k => congrArg (V c main_arg0) (h0 k)) (fun k => congrArg (V c main_arg1) (h1 k))

/-- What point `t` writes back of the column is block `t` of the squared norms of f · p. -/
theorem flushed_n (c : Dev nD) (t : Fin cfg0.N) :
    (dat0 V c).flushed 3 t = ((cfg0.win 3).blk t).view.read (Elt Ideal) (nres V c) := by
  show (cfg0.win 3).cut (grid0.coords t) ((dat0 V c).after 3 t) = _
  rw [after0_3]
  unfold out0_3
  rw [View.canon_unit_zero hz]
  simp only [View.ld_unit_zero (S := S256x2048) hz, View.ld_unit_zero (S := S2048x2048) hz]
  obtain ⟨e0, e1, e2, e3, e4, e5, e6, e7⟩ := idx_facts t
  funext j
  have hj0 : (j 0).val < 256 := (j 0).isLt
  have hj1 : (j 1).val < 1 := (j 1).isLt
  have hjj : j = ix2 (⟨(j 0).val, hj0⟩ : Fin 256) (⟨(j 1).val, hj1⟩ : Fin 1) :=
    funext fun a => by match a with | ⟨0, _⟩ => rfl | ⟨1, _⟩ => rfl
  have h0 : ∀ k : Fin 2048, ((cfg0.win 0).blk t).view.emb (ix2 (⟨(j 0).val, hj0⟩ : Fin 256) k)
      = ix2 ((((cfg0.win 3).blk t).view.emb j) 0) k := fun k => by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 2048 + 1 * k.val = k.val; omega
  have h1 : ∀ d k : Fin 2048, ((cfg0.win 1).blk t).view.emb (ix2 d k) = ix2 d k := fun d k => by
    funext a; apply Fin.ext
    match a with
    | ⟨0, _⟩ => show win0_1.index t (0 : Fin 2) * 2048 + 1 * d.val = d.val; omega
    | ⟨1, _⟩ => show win0_1.index t (1 : Fin 2) * 2048 + 1 * k.val = k.val; omega
  refine (congrArg (k0_pay3 (F := Ideal) (iblk0 V c 0 t) (iblk0 V c 1 t)) hjj).trans ?_
  exact pay_sqn (V c main_arg0) (V c main_arg1) (iblk0 V c 0 t) (iblk0 V c 1 t) _ _ (((cfg0.win 3).blk t).view.emb j)
    (fun k => congrArg (V c main_arg0) (h0 k)) (fun d k => congrArg (V c main_arg1) (h1 d k))

/-- An index of the product's array is in point `t`'s block iff each coordinate is in the block's range. -/
theorem mem_blk_z (t : Fin cfg0.N) (i : S4096x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v0_0).slice (win0_2.rect t)).set ↔ _
  rw [View.set_slice_whole, Rect.mem_set_unit]
  exact Iff.rfl

/-- The same for the column's array. -/
theorem mem_blk_n (t : Fin cfg0.N) (i : S4096x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v0_1).slice (win0_3.rect t)).set ↔ _
  rw [View.set_slice_whole, Rect.mem_set_unit]
  exact Iff.rfl

/-- Every entry of the product's array is written back: row r by the point r / 256. -/
theorem cover_z (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  have hN : cfg0.N = 16 := N_0
  refine ⟨⟨(i 0).val / 256, by rw [hN]; omega⟩, flush0_2 _, ?_⟩
  obtain ⟨-, -, -, -, e4, e5, -, -⟩ := idx_facts ⟨(i 0).val / 256, by rw [hN]; omega⟩
  rw [mem_blk_z]
  intro a
  match a with
  | ⟨0, _⟩ =>
    show win0_2.index _ (0 : Fin 2) * 256 ≤ (i 0).val ∧ (i 0).val < win0_2.index _ (0 : Fin 2) * 256 + 256
    rw [e4]; show (i 0).val / 256 * 256 ≤ (i 0).val ∧ (i 0).val < (i 0).val / 256 * 256 + 256; omega
  | ⟨1, _⟩ =>
    show win0_2.index _ (1 : Fin 2) * 2048 ≤ (i 1).val ∧ (i 1).val < win0_2.index _ (1 : Fin 2) * 2048 + 2048
    rw [e5]; omega

/-- Every entry of the column is written back: row r by the point r / 256. -/
theorem cover_n (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 16 := N_0
  refine ⟨⟨(i 0).val / 256, by rw [hN]; omega⟩, flush0_3 _, ?_⟩
  obtain ⟨-, -, -, -, -, -, e6, e7⟩ := idx_facts ⟨(i 0).val / 256, by rw [hN]; omega⟩
  rw [mem_blk_n]
  intro a
  match a with
  | ⟨0, _⟩ =>
    show win0_3.index _ (0 : Fin 2) * 256 ≤ (i 0).val ∧ (i 0).val < win0_3.index _ (0 : Fin 2) * 256 + 256
    rw [e6]; show (i 0).val / 256 * 256 ≤ (i 0).val ∧ (i 0).val < (i 0).val / 256 * 256 + 256; omega
  | ⟨1, _⟩ =>
    show win0_3.index _ (1 : Fin 2) * 1 ≤ (i 1).val ∧ (i 1).val < win0_3.index _ (1 : Fin 2) * 1 + 1
    rw [e7]; omega

/-- After the region its first output array is f · p … -/
theorem final_z (c : Dev nD) : (dat0 V c).arrAt 2 cfg0.N = zres V c :=
  (dat0 V c).arrAt_eq_of_cover 2 (zres V c) (fun t _ => flushed_z V c t) cover_z

/-- … and its second the column of squared norms of f · p's rows. -/
theorem final_n (c : Dev nD) : (dat0 V c).arrAt 3 cfg0.N = nres V c :=
  (dat0 V c).arrAt_eq_of_cover 3 (nres V c) (fun t _ => flushed_n V c t) cover_n

end Cert.KernelIdeal.ProjValue

end
-- ==== Proof.AdjPieces.lean ====
/-
  The second region's body, read: what one grid point leaves in its two output blocks.

  At row block `t` the body loads rows 256·t … 256·t + 255 of the projected features (a slice of the resident array
  at an offset computed from the block number), the resident array whole, the same rows of the column of squared
  norms, and the row of squared norms whole; it stores the 256 × 4096 slab of the adjacency once and the 256 × 1
  column of inverse square-root degrees once. Each output block therefore holds exactly its one store's value: the
  adjacency payload, respectively the degree payload, of those four loads. Stated for every float interpretation.
-/
import proofs.«131588_j5334349382038_2_alg».proof.Proof.Gen.KernelIdeal.Frame
import Idealize.ShloMosaic.Lib.Pipeline.Value
import Idealize.ShloMosaic.Lib.Tactic

set_option maxRecDepth 16384

noncomputable section

namespace Cert.KernelIdeal.AdjPieces

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- The rows of the projected features the body slices out at grid coordinates `i`. -/
abbrev rowsZ (i : grid1.Coords) (x0 : Vec F S4096x2048 .bf16) : Vec F S256x2048 .bf16 :=
  View.ld x0 (Rect.unit (s := S4096x2048) (k1_off1 i) S256x2048.size (k1_off1_inb i))

/-- The rows of the squared-norm column it slices out. -/
abbrev rowsN (i : grid1.Coords) (x1 : Vec F S4096x1 .f32) : Vec F S256x1 .f32 :=
  View.ld x1 (Rect.unit (s := S4096x1) (k1_off2 i) S256x1.size (k1_off2_inb i))

/-- The adjacency block after the body: its one store's value. -/
theorem out3_eq (c : Dev nD) (i : grid1.Coords) (arg1 : Memref sig .tc .vmem S4096x2048 .bf16) (harg1 : arg1.IsWhole) (arg2 : Memref sig .tc .vmem S4096x1 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S256x1 .f32) (harg5 : arg5.IsWhole)
    (x0 : Vec F S4096x2048 .bf16) (x1 : Vec F S4096x1 .f32) (x2 : Vec F S1x4096 .f32) :
    out1_A_3 (F := F) c i arg1 harg1 arg2 harg2 arg3 harg3 arg4 harg4 arg5 harg5 x0 x1 x2
      = k1_pay1 i (rowsZ i x0) x0 (rowsN i x1) x2 := by
  unfold out1_A_3
  rw [View.read_writes_eq_canon _ _ _ (cover1_A_3 c i arg1 harg1 arg2 harg2 arg3 harg3 arg4 harg4 arg5 harg5 x0 x1 x2)]
  unfold kernelRun1_A
  dsimp only
  rw [View.canon_unit_zero hz]
  simp only [View.readAt_eq_ld, harg1.read_unread, harg2.read_unread, harg3.read_unread,
    View.ld_unit_zero (S := S4096x2048) hz, View.ld_unit_zero (S := S1x4096) hz]

/-- The degree block after the body: its one store's value. -/
theorem out4_eq (c : Dev nD) (i : grid1.Coords) (arg1 : Memref sig .tc .vmem S4096x2048 .bf16) (harg1 : arg1.IsWhole) (arg2 : Memref sig .tc .vmem S4096x1 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S256x1 .f32) (harg5 : arg5.IsWhole)
    (x0 : Vec F S4096x2048 .bf16) (x1 : Vec F S4096x1 .f32) (x2 : Vec F S1x4096 .f32) :
    out1_A_4 (F := F) c i arg1 harg1 arg2 harg2 arg3 harg3 arg4 harg4 arg5 harg5 x0 x1 x2
      = k1_pay2 i (rowsZ i x0) x0 (rowsN i x1) x2 := by
  unfold out1_A_4
  rw [View.read_writes_eq_canon _ _ _ (cover1_A_4 c i arg1 harg1 arg2 harg2 arg3 harg3 arg4 harg4 arg5 harg5 x0 x1 x2)]
  unfold kernelRun1_A
  dsimp only
  rw [View.canon_unit_zero hz]
  simp only [View.readAt_eq_ld, harg1.read_unread, harg2.read_unread, harg3.read_unread,
    View.ld_unit_zero (S := S4096x2048) hz, View.ld_unit_zero (S := S1x4096) hz]

end Cert.KernelIdeal.AdjPieces

end
-- ==== Proof.AdjPay.lean ====
/-
  The second region's block body, read entry by entry.

  At block-row t the body holds 256 rows of the projected features z, all 4096 rows of z, the 256 matching entries of
  the column of squared norms and the whole row of squared norms. Entry (p, q) of what it stores first is
    exp (−1 · dist),  dist = 0 where 256·t + p = q and √(max ((n(256·t + p) + n q) − 2 · Σₖ z(256·t + p, k) · z(q, k), 0)) elsewhere,
  the square root being taken of 1 on the diagonal: the specification's adjacency at (256·t + p, q). What it stores second
  is, at row p, the inverse square root of the sum over q of those 4096 entries.
-/
import proofs.«131588_j5334349382038_2_alg».proof.Proof.Spec
import proofs.«131588_j5334349382038_2_alg».proof.Proof.LibColumns
import proofs.«131588_j5334349382038_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AdjPay

open Cert.KernelIdeal Cert.KernelIdeal.Gen Idealize.ShloMosaic Idealize.ShloMosaic.ValueIdx

/-- The diagonal test as the block body takes it at block-row offset t·256: the row number 256·t + p, formed as
    32-bit words, against the column number, is the specification's test at row r = 256·t + p. -/
theorem diag_eq (t p : Nat) (ht : t < 16) (hp : p < 256) (c : Fin 4096) (r : Fin 4096) (hr : r.val = 256 * t + p) :
    IntOp.cmpi .eq (IntOp.addi (Scalar.muli (BitVec.ofNat 32 t) 256#32) (BitVec.ofNat 32 p)) (BitVec.ofNat 32 c.val)
      = Cert.Maha.onDiag r c := by
  unfold Cert.Maha.onDiag
  have h : IntOp.addi (Scalar.muli (BitVec.ofNat 32 t) 256#32) (BitVec.ofNat 32 p) = BitVec.ofNat 32 r.val + 0#32 := by
    show BitVec.ofNat 32 t * BitVec.ofNat 32 256 + BitVec.ofNat 32 p = BitVec.ofNat 32 r.val + 0#32
    rw [BitVec.add_zero, hr, ← BitVec.ofNat_mul, ← BitVec.ofNat_add, Nat.mul_comm]
  rw [h]

/-- The block product's dimension numbers: both operands contract their columns. -/
abbrev D1 : DotDims S256x2048 S4096x2048 S256x4096 := dot_S256x2048_S4096x2048_S256x4096_1_1_0_0_n_n

/-- The left operand is read at the output's row … -/
theorem lhs0 (i : S256x4096.Idx) (q : D1.contr.Idx) : (D1.lhsIdx i q 0).val = (i 0).val := by
  unfold DotDims.lhsIdx
  rw [dif_neg (show ¬(0 : Fin S256x2048.rank) ∈ D1.lhsBatch by decide), dif_pos (show (0 : Fin S256x2048.rank) ∈ D1.lhsNonContracting by decide)]
  rfl
/-- … and the contraction position, -/
theorem lhs1 (i : S256x4096.Idx) (q : D1.contr.Idx) : (D1.lhsIdx i q 1).val = (q ⟨0, by decide⟩).val :=
  D1.lhsIdx_val_of_single rfl i q
/-- the right operand at the output's column, as its row, … -/
theorem rhs0 (i : S256x4096.Idx) (q : D1.contr.Idx) : (D1.rhsIdx i q 0).val = (i 1).val := by
  unfold DotDims.rhsIdx
  rw [dif_neg (show ¬(0 : Fin S4096x2048.rank) ∈ D1.rhsBatch by decide), dif_pos (show (0 : Fin S4096x2048.rank) ∈ D1.rhsNonContracting by decide)]
  rfl
/-- … and the contraction position. -/
theorem rhs1 (i : S256x4096.Idx) (q : D1.contr.Idx) : (D1.rhsIdx i q 1).val = (q ⟨0, by decide⟩).val :=
  D1.rhsIdx_val_of_single rfl i q

/-- The block product into a zero accumulator at entry (p, q): the inner product of the left operand's row p and the
    right operand's row q. -/
theorem gram_apply (x3 : FVec Ideal S256x2048 .bf16) (x5 : FVec Ideal S4096x2048 .bf16) (p : Fin 256) (q : Fin 4096) :
    FloatOps.matmul D1 none x3 x5 (constant S256x4096 .f32 0x00000000#32) (ix2 p q)
      = ∑ k : Fin 2048, x3 (ix2 p k) * x5 (ix2 q k) := by
  refine (Ideal.matmul_constant_zero_apply D1 none _ _ (ix2 p q)).trans ?_
  rw [← Equiv.sum_comp (contrEquiv1 D1 2048 rfl rfl).symm]
  refine Finset.sum_congr rfl fun k _ => ?_
  have hk := contrEquiv1_symm_val D1 2048 rfl rfl k
  have el : D1.lhsIdx (ix2 p q) ((contrEquiv1 D1 2048 rfl rfl).symm k) = ix2 p k := funext fun a => Fin.ext (by
    match a with
    | ⟨0, _⟩ => exact lhs0 _ _
    | ⟨1, _⟩ => exact (lhs1 _ _).trans hk)
  have er : D1.rhsIdx (ix2 p q) ((contrEquiv1 D1 2048 rfl rfl).symm k) = ix2 q k := funext fun a => Fin.ext (by
    match a with
    | ⟨0, _⟩ => exact rhs0 _ _
    | ⟨1, _⟩ => exact (rhs1 _ _).trans hk)
  rw [el, er]

/-- Entry (p, q) of the body's first stored value at block-row i: exp of −1 times the distance, the distance being 0
    where the diagonal test holds and elsewhere the square root of (n p + n q) − 2 · ⟨row p, row q⟩ clamped below at 0
    (where the test holds the root is taken of 1). -/
theorem pay1_apply (i : grid1.Coords) (x3 : FVec Ideal S256x2048 .bf16) (x5 : FVec Ideal S4096x2048 .bf16)
    (x8 : FVec Ideal S256x1 .f32) (x10 : FVec Ideal S1x4096 .f32) (p : Fin 256) (q : Fin 4096) :
    k1_pay1 (F := Ideal) i x3 x5 x8 x10 (ix2 p q)
      = Ideal.exp (Cert.Maha.cm1 * Scalar.select
          (IntOp.cmpi .eq (IntOp.addi (Scalar.muli (BitVec.ofNat 32 (i 0).val) 256#32) (BitVec.ofNat 32 p.val)) (BitVec.ofNat 32 q.val))
          Cert.Maha.c0
          (Ideal.sqrt (Scalar.select
            (IntOp.cmpi .eq (IntOp.addi (Scalar.muli (BitVec.ofNat 32 (i 0).val) 256#32) (BitVec.ofNat 32 p.val)) (BitVec.ofNat 32 q.val))
            Cert.Maha.c1
            (max ((x8 (ix2 p 0) + x10 (ix2 0 q)) - Cert.Maha.c2 * ∑ k : Fin 2048, x3 (ix2 p k) * x5 (ix2 q k)) Cert.Maha.c0)))) := by
  unfold k1_pay1
  show Ideal.exp (Cert.Maha.cm1 * Scalar.select
        (IntOp.cmpi .eq (IntOp.addi (Scalar.muli (BitVec.ofNat 32 (i 0).val) 256#32)
            (iota .tc S256x4096 32 [0] iota_S256x4096_d0_w32 (ix2 p q)))
          (iota .tc S256x4096 32 [1] iota_S256x4096_d1_w32 (ix2 p q)))
        Cert.Maha.c0
        (Ideal.sqrt (Scalar.select
          (IntOp.cmpi .eq (IntOp.addi (Scalar.muli (BitVec.ofNat 32 (i 0).val) 256#32)
              (iota .tc S256x4096 32 [0] iota_S256x4096_d0_w32 (ix2 p q)))
            (iota .tc S256x4096 32 [1] iota_S256x4096_d1_w32 (ix2 p q)))
          Cert.Maha.c1
          (max ((broadcastTo S256x4096 (shapeCast S256x1 x8 shapeCasts_S256x1_S256x1) broadcasts_S256x1_S256x4096 (ix2 p q)
                + broadcastTo S256x4096 (shapeCast S1x4096 x10 shapeCasts_S1x4096_S1x4096) broadcasts_S1x4096_S256x4096 (ix2 p q))
              - Cert.Maha.c2 * FloatOps.matmul D1 none (shapeCast S256x2048 x3 shapeCasts_S256x2048_S256x2048)
                  (shapeCast S4096x2048 x5 shapeCasts_S4096x2048_S4096x2048) (constant S256x4096 .f32 0x00000000#32) (ix2 p q))
            Cert.Maha.c0)))) = _
  rw [shapeCast_self x3, shapeCast_self x5, shapeCast_self x8, shapeCast_self x10, gram_apply,
    Cert.Columns.broadcastTo_a1_ab_apply, broadcastTo_1b_ab_apply, iota_single_apply, iota_single_apply]

/-- The body's first stored value is the specification's adjacency: at block-row i, entry (p, q) is the adjacency at
    (256·i + p, q) of the arrays the body's four operands are blocks of. -/
theorem pay1_adj (z : Cert.Maha.SF.Idx → EReal) (col : Cert.Maha.SC.Idx → EReal) (row : Cert.Maha.SR.Idx → EReal)
    (i : grid1.Coords) (x3 : FVec Ideal S256x2048 .bf16) (x5 : FVec Ideal S4096x2048 .bf16) (x8 : FVec Ideal S256x1 .f32)
    (x10 : FVec Ideal S1x4096 .f32) (p : Fin 256) (q : Fin 4096) (r : Fin 4096) (hr : r.val = 256 * (i 0).val + p.val)
    (h3 : ∀ k : Fin 2048, x3 (ix2 p k) = z (ix2 r k)) (h5 : ∀ (n : Fin 4096) (k : Fin 2048), x5 (ix2 n k) = z (ix2 n k))
    (h8 : x8 (ix2 p 0) = col (ix2 r 0)) (h10 : x10 (ix2 0 q) = row (ix2 0 q)) :
    k1_pay1 (F := Ideal) i x3 x5 x8 x10 (ix2 p q) = Cert.Maha.adjAt z col row r q := by
  have ht : (i 0).val < 16 := (i 0).isLt
  have hs : ∑ k : Fin 2048, x3 (ix2 p k) * x5 (ix2 q k) = ∑ k : Fin 2048, z (ix2 r k) * z (ix2 q k) :=
    Finset.sum_congr rfl fun k _ => by rw [h3 k, h5 q k]
  rw [pay1_apply, h8, h10, hs, diag_eq (i 0).val p.val ht p.isLt q r hr]
  rfl

/-- The body's second stored value at row p: the inverse square root of the sum of row p of the first. -/
theorem pay2_deg (i : grid1.Coords) (x3 : FVec Ideal S256x2048 .bf16) (x5 : FVec Ideal S4096x2048 .bf16)
    (x8 : FVec Ideal S256x1 .f32) (x10 : FVec Ideal S1x4096 .f32) (p : Fin 256) (u : Fin 1) :
    k1_pay2 (F := Ideal) i x3 x5 x8 x10 (ix2 p u)
      = Ideal.rsqrt (∑ j : Fin 4096, k1_pay1 (F := Ideal) i x3 x5 x8 x10 (ix2 p j)) := by
  unfold k1_pay2
  show Ideal.rsqrt (shapeCast S256x1 (multiReduction .add [1] S256 (k1_pay1 (F := Ideal) i x3 x5 x8 x10) 0x00000000#32
      reduces_S256x4096_S256 (.inl rfl) rfl) shapeCasts_S256_S256x1 (ix2 p u)) = _
  refine congrArg Ideal.rsqrt ?_
  refine (Cert.Columns.shapeCast_a_a1_apply _ _ p u).trans ?_
  refine (Ideal.multiReduction_add_single _ 0x00000000#32 reduces_S256x4096_S256 (.inl rfl) rfl (ix1 p)).trans ?_
  show ∑ k : Fin 4096, _ = _
  refine Finset.sum_congr rfl fun k _ => ?_
  have e : reduces_S256x4096_S256.lift (ix1 p) k = ix2 p k :=
    funext fun a => Fin.ext (by match a with | ⟨0, _⟩ => rfl | ⟨1, _⟩ => rfl)
  rw [e]

end Cert.KernelIdeal.AdjPay

end
-- ==== Proof.AdjValue.lean ====
/-
  The second region: the adjacency and the inverse square-root degrees, block by block.

  The region walks 16 row blocks of 256 rows; the projected features z, the column n of squared norms and its row
  form are resident whole. At block `t` the body slices rows 256·t … 256·t + 255 out of z and n, forms against ALL
  rows of z the slab of inner products, and from it the slab of the adjacency a(r, c) for r in the block and every c;
  it stores the slab, and the column of (Σ_c a(r, c))^(−1/2). Row r of either output lies in exactly the block
  r / 256, so after the last write-back the first output array is the adjacency of the arrays the region found and
  the second the column of its inverse square-root degrees.
-/
import proofs.«131588_j5334349382038_2_alg».proof.Proof.Spec
import proofs.«131588_j5334349382038_2_alg».proof.Proof.AdjPieces
import proofs.«131588_j5334349382038_2_alg».proof.Proof.AdjPay
import Idealize.ShloMosaic.Lib.Pipeline.Value
import Idealize.ShloMosaic.Lib.ValueIdx

set_option maxRecDepth 16384

noncomputable section

namespace Cert.KernelIdeal.AdjValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at point `t`: the three resident inputs always at the origin, the two outputs at
    row block `t`. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The body's computed row offset at point `t` is 256·t, its column offset 0, and its grid coordinate is `t`. -/
theorem off_facts : ∀ t : Fin cfg1.N, k1_off1 (grid1.coords t) (0 : Fin 2) = 256 * t.val ∧ k1_off1 (grid1.coords t) (1 : Fin 2) = 0
    ∧ k1_off2 (grid1.coords t) (0 : Fin 2) = 256 * t.val ∧ k1_off2 (grid1.coords t) (1 : Fin 2) = 0
    ∧ ((grid1.coords t) 0).val = t.val :=
  (by decide +kernel : ∀ t : Fin grid1.N, _)

/-- The adjacency the region leaves, as a function of the arrays it found. -/
abbrev ares (c : Dev nD) : Buf (Elt Ideal) ((c : Thread nD τ).loc main_v2_0) :=
  Cert.Maha.adj (V c main_v0_0) (V c main_v0_1) (V c main_v1)

/-- The column of inverse square-root degrees it leaves. -/
abbrev gres (c : Dev nD) : Buf (Elt Ideal) ((c : Thread nD τ).loc main_v2_1) :=
  Cert.Maha.degCol (Cert.Maha.adj (V c main_v0_0) (V c main_v0_1) (V c main_v1))

section Point
variable (c : Dev nD) (t : Fin cfg1.N)

/-- The sliced rows of z at point `t`: entry (p, k) is z's entry (256·t + p, k). -/
theorem rowsZ_at (p : Fin 256) (k : Fin 2048) (r : Fin 4096) (hr : r.val = 256 * t.val + p.val) :
    AdjPieces.rowsZ (F := Ideal) (grid1.coords t) (iblk1 V c 0 t) (ix2 p k) = V c main_v0_0 (ix2 r k) := by
  obtain ⟨e0, e1, -, -, -, -, -, -, -, -⟩ := idx_facts t
  obtain ⟨o0, o1, -, -, -⟩ := off_facts t
  refine congrArg (V c main_v0_0) (funext fun a => Fin.ext ?_)
  match a with
  | ⟨0, _⟩ => show win1_0.index t (0 : Fin 2) * 4096 + 1 * (k1_off1 (grid1.coords t) (0 : Fin 2) + 1 * p.val) = r.val; omega
  | ⟨1, _⟩ => show win1_0.index t (1 : Fin 2) * 2048 + 1 * (k1_off1 (grid1.coords t) (1 : Fin 2) + 1 * k.val) = k.val; omega

/-- The resident z at point `t` is z. -/
theorem wholeZ_at (n : Fin 4096) (k : Fin 2048) : (iblk1 V c 0 t) (ix2 n k) = V c main_v0_0 (ix2 n k) := by
  obtain ⟨e0, e1, -, -, -, -, -, -, -, -⟩ := idx_facts t
  refine congrArg (V c main_v0_0) (funext fun a => Fin.ext ?_)
  match a with
  | ⟨0, _⟩ => show win1_0.index t (0 : Fin 2) * 4096 + 1 * n.val = n.val; omega
  | ⟨1, _⟩ => show win1_0.index t (1 : Fin 2) * 2048 + 1 * k.val = k.val; omega

/-- The sliced rows of the squared-norm column: entry (p, 0) is the column's entry (256·t + p, 0). -/
theorem rowsN_at (p : Fin 256) (r : Fin 4096) (hr : r.val = 256 * t.val + p.val) :
    AdjPieces.rowsN (F := Ideal) (grid1.coords t) (iblk1 V c 1 t) (ix2 p (0 : Fin 1)) = V c main_v0_1 (ix2 r (0 : Fin 1)) := by
  obtain ⟨-, -, e2, e3, -, -, -, -, -, -⟩ := idx_facts t
  obtain ⟨-, -, o2, o3, -⟩ := off_facts t
  refine congrArg (V c main_v0_1) (funext fun a => Fin.ext ?_)
  match a with
  | ⟨0, _⟩ => show win1_1.index t (0 : Fin 2) * 4096 + 1 * (k1_off2 (grid1.coords t) (0 : Fin 2) + 1 * p.val) = r.val; omega
  | ⟨1, _⟩ => show win1_1.index t (1 : Fin 2) * 1 + 1 * (k1_off2 (grid1.coords t) (1 : Fin 2) + 1 * 0) = 0; omega

/-- The resident row of squared norms at point `t` is that row. -/
theorem wholeRow_at (q : Fin 4096) : (iblk1 V c 2 t) (ix2 (0 : Fin 1) q) = V c main_v1 (ix2 (0 : Fin 1) q) := by
  obtain ⟨-, -, -, -, e4, e5, -, -, -, -⟩ := idx_facts t
  refine congrArg (V c main_v1) (funext fun a => Fin.ext ?_)
  match a with
  | ⟨0, _⟩ => show win1_2.index t (0 : Fin 2) * 1 + 1 * 0 = 0; omega
  | ⟨1, _⟩ => show win1_2.index t (1 : Fin 2) * 4096 + 1 * q.val = q.val; omega

/-- The stored slab's entry (p, q) at point `t` is the adjacency's entry (256·t + p, q) of the arrays found. -/
theorem slab_at (p : Fin 256) (q : Fin 4096) (r : Fin 4096) (hr : r.val = 256 * t.val + p.val) :
    k1_pay1 (F := Ideal) (grid1.coords t) (AdjPieces.rowsZ (grid1.coords t) (iblk1 V c 0 t)) (iblk1 V c 0 t)
        (AdjPieces.rowsN (grid1.coords t) (iblk1 V c 1 t)) (iblk1 V c 2 t) (ix2 p q)
      = Cert.Maha.adjAt (V c main_v0_0) (V c main_v0_1) (V c main_v1) r q := by
  obtain ⟨-, -, -, -, g⟩ := off_facts t
  exact AdjPay.pay1_adj (V c main_v0_0) (V c main_v0_1) (V c main_v1) (grid1.coords t) _ _ _ _ p q r (by rw [g]; exact hr)
    (fun k => rowsZ_at V c t p k r hr) (fun n k => wholeZ_at V c t n k) (rowsN_at V c t p r hr) (wholeRow_at V c t q)

end Point

/-- What point `t` writes back of the adjacency is block `t` of the adjacency of the arrays the region found. -/
theorem flushed_a (c : Dev nD) (t : Fin cfg1.N) :
    (dat1 V c).flushed 3 t = ((cfg1.win 3).blk t).view.read (Elt Ideal) (ares V c) := by
  show (cfg1.win 3).cut (grid1.coords t) ((dat1 V c).after 3 t) = _
  rw [after1_3]
  unfold outsAt1
  dsimp only
  rw [AdjPieces.out3_eq]
  obtain ⟨-, -, -, -, -, -, e6, e7, -, -⟩ := idx_facts t
  funext j
  have hj0 : (j 0).val < 256 := (j 0).isLt
  have hj1 : (j 1).val < 4096 := (j 1).isLt
  have hjj : j = ix2 (⟨(j 0).val, hj0⟩ : Fin 256) (⟨(j 1).val, hj1⟩ : Fin 4096) :=
    funext fun a => by match a with | ⟨0, _⟩ => rfl | ⟨1, _⟩ => rfl
  have hr : ((((cfg1.win 3).blk t).view.emb j) 0).val = 256 * t.val + (j 0).val := by
    show win1_3.index t (0 : Fin 2) * 256 + 1 * (j 0).val = _; omega
  have hq : (((cfg1.win 3).blk t).view.emb j) 1 = (⟨(j 1).val, hj1⟩ : Fin 4096) := Fin.ext (by
    show win1_3.index t (1 : Fin 2) * 4096 + 1 * (j 1).val = (j 1).val; omega)
  refine (congrArg (k1_pay1 (F := Ideal) (grid1.coords t) (AdjPieces.rowsZ (grid1.coords t) (iblk1 V c 0 t)) (iblk1 V c 0 t)
    (AdjPieces.rowsN (grid1.coords t) (iblk1 V c 1 t)) (iblk1 V c 2 t)) hjj).trans ?_
  refine (slab_at V c t _ _ ((((cfg1.win 3).blk t).view.emb j) 0) hr).trans ?_
  exact congrArg (Cert.Maha.adjAt (V c main_v0_0) (V c main_v0_1) (V c main_v1) ((((cfg1.win 3).blk t).view.emb j) 0)) hq.symm

/-- What point `t` writes back of the degree column is block `t` of the inverse square-root degrees of that adjacency. -/
theorem flushed_g (c : Dev nD) (t : Fin cfg1.N) :
    (dat1 V c).flushed 4 t = ((cfg1.win 4).blk t).view.read (Elt Ideal) (gres V c) := by
  show (cfg1.win 4).cut (grid1.coords t) ((dat1 V c).after 4 t) = _
  rw [after1_4]
  unfold outsAt1
  dsimp only
  rw [AdjPieces.out4_eq]
  obtain ⟨-, -, -, -, -, -, -, -, e8, e9⟩ := idx_facts t
  funext j
  have hj0 : (j 0).val < 256 := (j 0).isLt
  have hj1 : (j 1).val < 1 := (j 1).isLt
  have hjj : j = ix2 (⟨(j 0).val, hj0⟩ : Fin 256) (⟨(j 1).val, hj1⟩ : Fin 1) :=
    funext fun a => by match a with | ⟨0, _⟩ => rfl | ⟨1, _⟩ => rfl
  have hr : ((((cfg1.win 4).blk t).view.emb j) 0).val = 256 * t.val + (j 0).val := by
    show win1_4.index t (0 : Fin 2) * 256 + 1 * (j 0).val = _; omega
  refine (congrArg (k1_pay2 (F := Ideal) (grid1.coords t) (AdjPieces.rowsZ (grid1.coords t) (iblk1 V c 0 t)) (iblk1 V c 0 t)
    (AdjPieces.rowsN (grid1.coords t) (iblk1 V c 1 t)) (iblk1 V c 2 t)) hjj).trans ?_
  refine (AdjPay.pay2_deg _ _ _ _ _ _ _).trans ?_
  show _ = Ideal.rsqrt (∑ q : Fin 4096, Cert.Maha.adjAt (V c main_v0_0) (V c main_v0_1) (V c main_v1) ((((cfg1.win 4).blk t).view.emb j) 0) q)
  exact congrArg Ideal.rsqrt (Finset.sum_congr rfl fun q _ => slab_at V c t _ q _ hr)

/-- An index of the adjacency's array is in point `t`'s block iff each coordinate is in the block's range. -/
theorem mem_blk_a (t : Fin cfg1.N) (i : S4096x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v2_0).slice (win1_3.rect t)).set ↔ _
  rw [View.set_slice_whole, Rect.mem_set_unit]
  exact Iff.rfl

/-- The same for the degree column's array. -/
theorem mem_blk_g (t : Fin cfg1.N) (i : S4096x1.Idx) :
    i ∈ ((cfg1.win 4).blk t).view.set ↔ ∀ a : Fin 2, win1_4.index t a * S256x1.size a ≤ (i a).val ∧ (i a).val < win1_4.index t a * S256x1.size a + S256x1.size a := by
  show i ∈ ((View.whole main_v2_1).slice (win1_4.rect t)).set ↔ _
  rw [View.set_slice_whole, Rect.mem_set_unit]
  exact Iff.rfl

/-- Every entry of the adjacency is written back: row r by the point r / 256. -/
theorem cover_a (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  have hN : cfg1.N = 16 := N_1
  refine ⟨⟨(i 0).val / 256, by rw [hN]; omega⟩, flush1_3 _, ?_⟩
  obtain ⟨-, -, -, -, -, -, e6, e7, -, -⟩ := idx_facts ⟨(i 0).val / 256, by rw [hN]; omega⟩
  rw [mem_blk_a]
  intro a
  match a with
  | ⟨0, _⟩ =>
    show win1_3.index _ (0 : Fin 2) * 256 ≤ (i 0).val ∧ (i 0).val < win1_3.index _ (0 : Fin 2) * 256 + 256
    rw [e6]; show (i 0).val / 256 * 256 ≤ (i 0).val ∧ (i 0).val < (i 0).val / 256 * 256 + 256; omega
  | ⟨1, _⟩ =>
    show win1_3.index _ (1 : Fin 2) * 4096 ≤ (i 1).val ∧ (i 1).val < win1_3.index _ (1 : Fin 2) * 4096 + 4096
    rw [e7]; omega

/-- Every entry of the degree column is written back: row r by the point r / 256. -/
theorem cover_g (i : S4096x1.Idx) :
    ∃ t : Fin cfg1.N, (cfg1.win 4).flush t = true ∧ i ∈ ((cfg1.win 4).blk t).view.set := by
  have hi0 : (i 0).val < 4096 := (i 0).isLt
  have hi1 : (i 1).val < 1 := (i 1).isLt
  have hN : cfg1.N = 16 := N_1
  refine ⟨⟨(i 0).val / 256, by rw [hN]; omega⟩, flush1_4 _, ?_⟩
  obtain ⟨-, -, -, -, -, -, -, -, e8, e9⟩ := idx_facts ⟨(i 0).val / 256, by rw [hN]; omega⟩
  rw [mem_blk_g]
  intro a
  match a with
  | ⟨0, _⟩ =>
    show win1_4.index _ (0 : Fin 2) * 256 ≤ (i 0).val ∧ (i 0).val < win1_4.index _ (0 : Fin 2) * 256 + 256
    rw [e8]; show (i 0).val / 256 * 256 ≤ (i 0).val ∧ (i 0).val < (i 0).val / 256 * 256 + 256; omega
  | ⟨1, _⟩ =>
    show win1_4.index _ (1 : Fin 2) * 1 ≤ (i 1).val ∧ (i 1).val < win1_4.index _ (1 : Fin 2) * 1 + 1
    rw [e9]; omega

/-- After the region its first output array is the adjacency of the arrays it found … -/
theorem final_a (c : Dev nD) : (dat1 V c).arrAt 3 cfg1.N = ares V c :=
  (dat1 V c).arrAt_eq_of_cover 3 (ares V c) (fun t _ => flushed_a V c t) cover_a

/-- … and its second the column of that adjacency's inverse square-root degrees. -/
theorem final_g (c : Dev nD) : (dat1 V c).arrAt 4 cfg1.N = gres V c :=
  (dat1 V c).arrAt_eq_of_cover 4 (gres V c) (fun t _ => flushed_g V c t) cover_g

end Cert.KernelIdeal.AdjValue

end
-- ==== Proof.NormValue.lean ====
/-
  The third region: the degree normalisation, block by block, is the normalisation of the whole array.

  The region walks 16 row blocks of 256 rows. At block `t` its body holds rows 256·t … 256·t + 255 of the adjacency
  `a`, the same rows of the column `g` of inverse square-root degrees, and the whole row form of `g`, and stores
  (g(r) · a(r, c)) · g(c) for every entry of the block — the column broadcast along the columns, the row along the
  rows. Every row of the 4096 × 4096 result lies in exactly the block of its number divided by 256, so after the last
  write-back the result array is the normalised adjacency of the arrays the region found, whatever those are.
-/
import proofs.«131588_j5334349382038_2_alg».proof.Proof.Spec
import proofs.«131588_j5334349382038_2_alg».proof.Proof.LibColumns
import proofs.«131588_j5334349382038_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.NormValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of a block: the column's entry of row p times the adjacency's entry,
    times the row's entry of column q. -/
theorem pay_apply (x0 : FVec Ideal S256x4096 .f32) (x1 : FVec Ideal S256x1 .f32) (x2 : FVec Ideal S1x4096 .f32)
    (p : Fin 256) (q : Fin 4096) :
    k2_pay1 (F := Ideal) x0 x1 x2 (ix2 p q) = (x1 (ix2 p 0) * x0 (ix2 p q)) * x2 (ix2 0 q) := by
  unfold k2_pay1
  show broadcastTo S256x4096 (shapeCast S256x1 x1 _) _ (ix2 p q) * shapeCast S256x4096 x0 _ (ix2 p q)
      * broadcastTo S256x4096 (shapeCast S1x4096 x2 _) _ (ix2 p q) = _
  rw [shapeCast_self, shapeCast_self, shapeCast_self, Cert.Columns.broadcastTo_a1_ab_apply, broadcastTo_1b_ab_apply]

/-- Where each window's block sits at point `t`: the adjacency's, the column's and the result's at row block `t`,
    the row vector's always at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The result array the region leaves, as a function of the arrays it found. -/
abbrev result (c : Dev nD) : Buf (Elt Ideal) ((c : Thread nD τ).loc main_v4) :=
  Cert.Maha.norm (V c main_v2_0) (V c main_v2_1) (V c main_v3)

/-- The body's stored value against the specification: if the three loaded blocks hold, at the entry's coordinates,
    what the arrays hold at index `i`'s row and column, the stored entry is the normalised adjacency at `i`. -/
theorem pay_norm (a : Cert.Maha.SA.Idx → EReal) (col : Cert.Maha.SC.Idx → EReal) (row : Cert.Maha.SR.Idx → EReal)
    (x0 : FVec Ideal S256x4096 .f32) (x1 : FVec Ideal S256x1 .f32) (x2 : FVec Ideal S1x4096 .f32)
    (p : Fin 256) (q : Fin 4096) (i : Cert.Maha.SA.Idx)
    (h0 : x0 (ix2 p q) = a (ix2 (i 0) (i 1))) (h1 : x1 (ix2 p 0) = col (ix2 (i 0) 0)) (h2 : x2 (ix2 0 q) = row (ix2 0 (i 1))) :
    k2_pay1 (F := Ideal) x0 x1 x2 (ix2 p q) = Cert.Maha.norm a col row i := by
  rw [pay_apply, h0, h1, h2]
  rfl

/-- What point `t` writes back is block `t` of the normalised adjacency of the arrays the region found: the block's
    entry (p, q) is the array's entry (256·t + p, q), the column's block holds rows 256·t + p, the row vector is whole. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S256x4096) hz, View.ld_unit_zero (S := S256x1) hz, View.ld_unit_zero (S := S1x4096) hz]
  obtain ⟨e0, e1, e2, e3, e4, e5, e6, e7⟩ := idx_facts t
  funext j
  have hj0 : (j 0).val < 256 := (j 0).isLt
  have hj1 : (j 1).val < 4096 := (j 1).isLt
  have hjj : j = ix2 (⟨(j 0).val, hj0⟩ : Fin 256) (⟨(j 1).val, hj1⟩ : Fin 4096) :=
    funext fun a => by match a with | ⟨0, _⟩ => rfl | ⟨1, _⟩ => rfl
  have h1 : ((cfg2.win 1).blk t).view.emb (ix2 (⟨(j 0).val, hj0⟩ : Fin 256) (0 : Fin 1)) = ix2 ((((cfg2.win 3).blk t).view.emb j) 0) (0 : Fin 1) := by
    funext a; apply Fin.ext
    match a with
    | ⟨0, _⟩ => show win2_1.index t (0 : Fin 2) * 256 + 1 * (j 0).val = win2_3.index t (0 : Fin 2) * 256 + 1 * (j 0).val; omega
    | ⟨1, _⟩ => show win2_1.index t (1 : Fin 2) * 1 + 1 * 0 = 0; omega
  have h0 : ((cfg2.win 0).blk t).view.emb (ix2 (⟨(j 0).val, hj0⟩ : Fin 256) (⟨(j 1).val, hj1⟩ : Fin 4096))
      = ix2 ((((cfg2.win 3).blk t).view.emb j) 0) ((((cfg2.win 3).blk t).view.emb j) 1) := by
    funext a; apply Fin.ext
    match a with
    | ⟨0, _⟩ => show win2_0.index t (0 : Fin 2) * 256 + 1 * (j 0).val = win2_3.index t (0 : Fin 2) * 256 + 1 * (j 0).val; omega
    | ⟨1, _⟩ => show win2_0.index t (1 : Fin 2) * 4096 + 1 * (j 1).val = win2_3.index t (1 : Fin 2) * 4096 + 1 * (j 1).val; omega
  have h2 : ((cfg2.win 2).blk t).view.emb (ix2 (0 : Fin 1) (⟨(j 1).val, hj1⟩ : Fin 4096)) = ix2 (0 : Fin 1) ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 4096 + 1 * (j 1).val = win2_3.index t (1 : Fin 2) * 4096 + 1 * (j 1).val; omega
  refine (congrArg (k2_pay1 (F := Ideal) (iblk2 V c 0 t) (iblk2 V c 1 t) (iblk2 V c 2 t)) hjj).trans ?_
  exact pay_norm (V c main_v2_0) (V c main_v2_1) (V c main_v3) (iblk2 V c 0 t) (iblk2 V c 1 t) (iblk2 V c 2 t) _ _
    (((cfg2.win 3).blk t).view.emb j) (congrArg (V c main_v2_0) h0) (congrArg (V c main_v2_1) h1) (congrArg (V c main_v3) h2)

/-- An index of the result array is in point `t`'s block iff each coordinate is in the block's range on its axis. -/
theorem mem_blk (t : Fin cfg2.N) (i : S4096x4096.Idx) :
    i ∈ ((cfg2.win 3).blk t).view.set ↔ ∀ a : Fin 2, win2_3.index t a * S256x4096.size a ≤ (i a).val ∧ (i a).val < win2_3.index t a * S256x4096.size a + S256x4096.size a := by
  show i ∈ ((View.whole main_v4).slice (win2_3.rect t)).set ↔ _
  rw [View.set_slice_whole, Rect.mem_set_unit]
  exact Iff.rfl

/-- Every entry of the result array is written back: row r by the point r / 256. -/
theorem cover (i : S4096x4096.Idx) :
    ∃ t : Fin cfg2.N, (cfg2.win 3).flush t = true ∧ i ∈ ((cfg2.win 3).blk t).view.set := by
  have hi0 : (i 0).val < 4096 := (i 0).isLt
  have hi1 : (i 1).val < 4096 := (i 1).isLt
  have hN : cfg2.N = 16 := N_2
  refine ⟨⟨(i 0).val / 256, by rw [hN]; omega⟩, flush2_3 _, ?_⟩
  obtain ⟨-, -, -, -, -, -, e6, e7⟩ := idx_facts ⟨(i 0).val / 256, by rw [hN]; omega⟩
  rw [mem_blk]
  intro a
  match a with
  | ⟨0, _⟩ =>
    show win2_3.index _ (0 : Fin 2) * 256 ≤ (i 0).val ∧ (i 0).val < win2_3.index _ (0 : Fin 2) * 256 + 256
    rw [e6]; show (i 0).val / 256 * 256 ≤ (i 0).val ∧ (i 0).val < (i 0).val / 256 * 256 + 256; omega
  | ⟨1, _⟩ =>
    show win2_3.index _ (1 : Fin 2) * 4096 ≤ (i 1).val ∧ (i 1).val < win2_3.index _ (1 : Fin 2) * 4096 + 4096
    rw [e7]; omega

/-- After the region the result array is the normalised adjacency of the arrays the region found. -/
theorem final (c : Dev nD) : (dat2 V c).arrAt 3 cfg2.N = result V c :=
  (dat2 V c).arrAt_eq_of_cover 3 (result V c) (fun t _ => flushed_eq V c t) cover

end Cert.KernelIdeal.NormValue

end
-- ==== Proof.KernelValue.lean ====
/-
  The idealized kernel, end to end: its two results as functions of its two arguments.

  Following the buffers through @main — first region, reshape, second region, reshape, third region — with each
  region's output arrays read as the specification's function of the arrays that region found:
    after the first region   z = f · p and the column n of its rows' squared norms;
    the first reshape        lays n out as a row (entry (0, c) is n's entry (c, 0): the same row-major position);
    after the second region  the adjacency a of (z, n, n as a row) and the column g of its inverse square-root degrees;
    the second reshape       lays g out as a row;
    after the third region   the normalisation of a by g and g as a row.
  A buffer a later segment does not write keeps its contents, so each region finds exactly what the earlier ones left.
-/
import proofs.«131588_j5334349382038_2_alg».proof.Proof.Spec
import proofs.«131588_j5334349382038_2_alg».proof.Proof.LibColumns
import proofs.«131588_j5334349382038_2_alg».proof.Proof.WholeRun
import proofs.«131588_j5334349382038_2_alg».proof.Proof.ProjValue
import proofs.«131588_j5334349382038_2_alg».proof.Proof.AdjValue
import proofs.«131588_j5334349382038_2_alg».proof.Proof.NormValue
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A 4096 × 1 column reshaped to 1 × 4096 is the column laid out as a row. -/
theorem reshape_row (v : S4096x1.Idx → EReal) :
    shapeCast S1x4096 v shapeCasts_S4096x1_S1x4096 = Cert.Maha.rowOf v := by
  funext i
  obtain ⟨u, q, rfl⟩ : ∃ (u : Fin 1) (q : Fin 4096), i = ix2 u q := ⟨i 0, i 1, eq_ix2 i⟩
  exact Cert.Columns.shapeCast_a1_1a_apply v _ u q

/-- The features and the projection matrix at launch. -/
abbrev f0 (c : Dev nD) : Cert.Maha.SF.Idx → EReal := m ((c.tc : Thread nD τ).loc main_arg0)
abbrev p0 (c : Dev nD) : Cert.Maha.SP.Idx → EReal := m ((c.tc : Thread nD τ).loc main_arg1)

/-- The first reshape writes neither output of the first region … -/
theorem keep1 (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- … and the second neither output of the second. -/
theorem keep2 (c : Dev nD) (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- What the first reshape writes: the squared-norm column as a row. -/
theorem row1 (c : Dev nD) : (W2 m ρ c (Proc.devRef .tc main_v1) : S1x4096.Idx → EReal)
    = Cert.Maha.rowOf (W1 m ρ c (Proc.devRef .tc main_v0_1)) := by
  rw [← reshape_row]
  show StableHlo.after hostOps1 (W1 m ρ c) (Proc.devRef .tc main_v1) = _
  after_results
  rfl

/-- What the second reshape writes: the degree column as a row. -/
theorem row2 (c : Dev nD) : (W4 m ρ c (Proc.devRef .tc main_v3) : S1x4096.Idx → EReal)
    = Cert.Maha.rowOf (W3 m ρ c (Proc.devRef .tc main_v2_1)) := by
  rw [← reshape_row]
  show StableHlo.after hostOps2 (W3 m ρ c) (Proc.devRef .tc main_v3) = _
  after_results
  rfl

/-- The second region finds z = f · p, … -/
theorem V2_z (c : Dev nD) : V2 m ρ c main_v0_0 = Cert.Maha.proj (f0 m c) (p0 m c) :=
  (keep1 m ρ c main_v0_0 (by decide)).trans ((W1_arr m ρ c 2).trans (ProjValue.final_z (V0 m ρ) c))

/-- … the column of z's rows' squared norms, … -/
theorem V2_n (c : Dev nD) : V2 m ρ c main_v0_1 = Cert.Maha.sqnCol (Cert.Maha.proj (f0 m c) (p0 m c)) :=
  (keep1 m ρ c main_v0_1 (by decide)).trans ((W1_arr m ρ c 3).trans (ProjValue.final_n (V0 m ρ) c))

/-- … and that column as a row. -/
theorem V2_row (c : Dev nD) : V2 m ρ c main_v1 = Cert.Maha.rowOf (Cert.Maha.sqnCol (Cert.Maha.proj (f0 m c) (p0 m c))) :=
  (row1 m ρ c).trans (congrArg Cert.Maha.rowOf ((W1_arr m ρ c 3).trans (ProjValue.final_n (V0 m ρ) c)))

/-- So the second region leaves the adjacency of the features projected by the matrix … -/
theorem adj_final (c : Dev nD) : (dat1 (V2 m ρ) c).arrAt 3 cfg1.N = Cert.Maha.adjOf (f0 m c) (p0 m c) := by
  rw [AdjValue.final_a]
  show Cert.Maha.adj (V2 m ρ c main_v0_0) (V2 m ρ c main_v0_1) (V2 m ρ c main_v1) = _
  rw [V2_z, V2_n, V2_row]
  rfl

/-- … and the column of its inverse square-root degrees. -/
theorem deg_final (c : Dev nD) : (dat1 (V2 m ρ) c).arrAt 4 cfg1.N = Cert.Maha.degCol (Cert.Maha.adjOf (f0 m c) (p0 m c)) := by
  rw [AdjValue.final_g]
  show Cert.Maha.degCol (Cert.Maha.adj (V2 m ρ c main_v0_0) (V2 m ρ c main_v0_1) (V2 m ρ c main_v1)) = _
  rw [V2_z, V2_n, V2_row]
  rfl

/-- The third region finds that adjacency, … -/
theorem V4_a (c : Dev nD) : V4 m ρ c main_v2_0 = Cert.Maha.adjOf (f0 m c) (p0 m c) :=
  (keep2 m ρ c main_v2_0 (by decide)).trans ((W3_arr m ρ c 3).trans (adj_final m ρ c))

/-- … its degree column, … -/
theorem V4_g (c : Dev nD) : V4 m ρ c main_v2_1 = Cert.Maha.degCol (Cert.Maha.adjOf (f0 m c) (p0 m c)) :=
  (keep2 m ρ c main_v2_1 (by decide)).trans ((W3_arr m ρ c 4).trans (deg_final m ρ c))

/-- … and that column as a row. -/
theorem V4_row (c : Dev nD) : V4 m ρ c main_v3 = Cert.Maha.rowOf (Cert.Maha.degCol (Cert.Maha.adjOf (f0 m c) (p0 m c))) :=
  (row2 m ρ c).trans (congrArg Cert.Maha.rowOf ((W3_arr m ρ c 4).trans (deg_final m ρ c)))

/-- So the third region leaves the normalised adjacency. -/
theorem norm_final (c : Dev nD) : (dat2 (V4 m ρ) c).arrAt 3 cfg2.N = Cert.Maha.normOf (f0 m c) (p0 m c) := by
  rw [NormValue.final]
  show Cert.Maha.norm (V4 m ρ c main_v2_0) (V4 m ρ c main_v2_1) (V4 m ρ c main_v3) = _
  rw [V4_a, V4_g, V4_row]
  rfl

/-- The idealized kernel's run, read: every weakly fair execution terminates, nothing faulting, with the first result
    the normalised adjacency and the second the adjacency of the launch arguments, and the arguments unchanged. -/
theorem run : θ_run defs (onTc (τ := τ) (main (F := Ideal))) ⟨m, fun _ => 0, ρ⟩ (fun r => ∀ c : Dev nD,
      r.2.mem ((c.tc : Thread nD τ).loc main_v4) = Cert.Maha.normOf (f0 m c) (p0 m c)
      ∧ r.2.mem ((c.tc : Thread nD τ).loc main_v2_0) = Cert.Maha.adjOf (f0 m c) (p0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c).1.trans (norm_final m ρ c), (h c).2.1.trans (adj_final m ρ c), (h c).2.2.1, (h c).2.2.2⟩)
    (Whole.run m ρ)

end Cert.KernelIdeal.Chain

end
-- ==== Proof.lean ====
/-
  The certificate: a three-kernel Mahalanobis adjacency against its plain reference, equal over the extended reals.

  Both programs compute, from features f (4096 × 2048) and a projection p (2048 × 2048), the adjacency
  a(r, c) = exp(−dist(r, c)) of the rows of z = f · p — dist the Euclidean distance off the diagonal, from the squared
  norms and the inner products, clamped at zero, and zero on the diagonal — and its symmetric normalisation
  (g(r) · a(r, c)) · g(c) by the inverse square roots g of the row degrees (Proof/Spec.lean states all of it once).

  The kernel does it in three grid regions over 16 blocks of 256 rows, with a reshape of a column to a row between
  each pair: the projection and the squared norms (Proof/ProjValue.lean), the adjacency slab and the degrees
  (Proof/AdjPieces.lean, Proof/AdjPay.lean, Proof/AdjValue.lean), the normalisation (Proof/NormValue.lean); chained in
  Proof/KernelValue.lean over the run of Proof/WholeRun.lean. The reference does it in one straight line of host
  operations (Proof/RefSpec.lean reads it stage by stage). Neither side re-orders or re-groups a sum or a product
  against the other: a block product into a zero accumulator and the host's product are the same finite sum, a lane
  sum and the host's sum from zero likewise, narrowing to sixteen bits is the identity on the extended reals, and the
  square root, exponential and inverse square root are the same functions in a kernel and on the host. So no law that
  needs finite numbers is used, and the precondition is never opened.

  The three frames are the generated frame certificates (the reference's is its generated run with the results
  dropped); the idealization rewrote nothing, so `preserves` is `True`.
-/
import proofs.«131588_j5334349382038_2_alg».proof.Defs
import proofs.«131588_j5334349382038_2_alg».proof.Proof.Gen.Kernel
import proofs.«131588_j5334349382038_2_alg».proof.Proof.Gen.Kernel.Skeleton
import proofs.«131588_j5334349382038_2_alg».proof.Proof.Gen.Kernel.Launch
import proofs.«131588_j5334349382038_2_alg».proof.Proof.Gen.Kernel.Points
import proofs.«131588_j5334349382038_2_alg».proof.Proof.Gen.Kernel.Frame
import proofs.«131588_j5334349382038_2_alg».proof.Proof.Gen.KernelIdeal
import proofs.«131588_j5334349382038_2_alg».proof.Proof.Gen.KernelIdeal.Skeleton
import proofs.«131588_j5334349382038_2_alg».proof.Proof.Gen.KernelIdeal.Launch
import proofs.«131588_j5334349382038_2_alg».proof.Proof.Gen.KernelIdeal.Points
import proofs.«131588_j5334349382038_2_alg».proof.Proof.Gen.KernelIdeal.Frame
import proofs.«131588_j5334349382038_2_alg».proof.Proof.Gen.ReferenceIdeal
import proofs.«131588_j5334349382038_2_alg».proof.Proof.Gen.Pre_finite_inputs
import proofs.«131588_j5334349382038_2_alg».proof.Proof.Gen.ReferenceIdeal.Run
import proofs.«131588_j5334349382038_2_alg».proof.Proof.Gen.ReferenceIdeal.Read
import proofs.«131588_j5334349382038_2_alg».proof.Proof.RefSpec
import proofs.«131588_j5334349382038_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote no operation. -/
theorem preserves : Cert.preserves_Kernel_KernelIdeal := trivial

/-- From memories that agree on the features and the projection, the idealized kernel and the idealized reference
    both end with the normalised adjacency and the adjacency of those arguments: the kernel's three regions chained,
    the reference's stages read, both against the one specification. -/
theorem algebraic : Cert.algebraic_KernelIdeal_ReferenceIdeal := by
  intro m ρ m' ρ' _ hagree
  refine ⟨fun c => Cert.Maha.normOf (Cert.KernelIdeal.Chain.f0 m c) (Cert.KernelIdeal.Chain.p0 m c),
    fun c => Cert.Maha.adjOf (Cert.KernelIdeal.Chain.f0 m c) (Cert.KernelIdeal.Chain.p0 m c),
    Cert.KernelIdeal.Chain.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v33_eq, Cert.Maha.Ref.ref_norm, (hagree c).1, (hagree c).2]
  · refine (Cert.ReferenceIdeal.Read.val_main_v25_eq _ _).trans ?_
    rw [Cert.Maha.Ref.ref_adj, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
